-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S1024x512 .f32
  ∧ IdealRules.sign_bit.Statement Cert.KernelIdeal.S1024x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v33 : BitVec 1 := Scalar.cmpi .eq arg2 c7_i32
  let v34 : BitVec 32 := Scalar.extui v33
  let c0_i32_12 : BitVec 32 := 0#32
  let v35 : BitVec 1 := Scalar.cmpi .ne v34 c0_i32_12
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  transposes_S4096x4096_S4096x4096_1_0 : S4096x4096.Transposes [1, 0] S4096x4096
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.SignProduct.lean ====
/-
  The function both programs compute, stated once over the whole arrays, and the one law that joins their two
  arrangements of it.

  For arrays x and w of 4096 rows and 4096 columns of extended reals, entry (r, s) of the result is

      sum over the 4096 columns k of  sign (x r k) * sign (w s k),

  the product of the sign matrices of x and of the transpose of w. One program sums the 4096 columns at once; the
  other cuts them into 8 consecutive blocks of 512 columns and adds one block's sum after another into a running
  total that starts at zero. Addition of extended reals is commutative and associative (also at the infinities), so
  the two are equal with no condition on the entries: a sum over 4096 columns is the sum over the 8 blocks of the sums
  over each block's 512 columns (`sum_blocks`), and the running total after n blocks is the sum of the first n block
  sums (`partialSum`).
-/
import Idealize.ShloMosaic.PureOps.Ideal
import Idealize.ShloMosaic.Lib.ValueIdx

noncomputable section

namespace Cert.SignProduct

open Idealize.ShloMosaic Idealize.ShloMosaic.ValueIdx

/-- A 4096 x 4096 array of extended reals. -/
abbrev Arr : Type := (⟨2, ![4096, 4096]⟩ : Shape).Idx → EReal

/-- The terms of entry (r, s): at column k, the product of the signs of x r k and w s k. -/
def term (x w : Arr) (r s : Fin 4096) : Fin 4096 → EReal :=
  fun k => Ideal.sign (x (ix2 r k)) * Ideal.sign (w (ix2 s k))

/-- The result: entry (r, s) is the sum of its 4096 terms. -/
def signProduct (x w : Arr) : Arr :=
  fun i => ∑ k : Fin 4096, term x w (i 0) (i 1) k

/-! ## Columns in blocks of 512 -/

/-- Column k of block b is column 512 b + k. -/
def col (b : Fin 8) (k : Fin 512) : Fin 4096 :=
  ⟨512 * b.val + k.val, by have := b.isLt; have := k.isLt; omega⟩

/-- A column is a block and a place in it: k = 512 (k / 512) + k % 512. -/
def blockEquiv : Fin 8 × Fin 512 ≃ Fin 4096 where
  toFun p := col p.1 p.2
  invFun j := (⟨j.val / 512, by have := j.isLt; omega⟩, ⟨j.val % 512, Nat.mod_lt _ (by decide)⟩)
  left_inv p := by
    obtain ⟨b, k⟩ := p
    have hb := b.isLt
    have hk := k.isLt
    refine Prod.ext (Fin.ext ?_) (Fin.ext ?_)
    · show (512 * b.val + k.val) / 512 = b.val
      omega
    · show (512 * b.val + k.val) % 512 = k.val
      omega
  right_inv j := by
    apply Fin.ext
    show 512 * (j.val / 512) + j.val % 512 = j.val
    omega

/-- A sum over the 4096 columns is the sum over the 8 blocks of the sums over each block's 512 columns. -/
theorem sum_blocks (f : Fin 4096 → EReal) : ∑ j : Fin 4096, f j = ∑ b : Fin 8, ∑ k : Fin 512, f (col b k) := by
  rw [← Equiv.sum_comp blockEquiv f, Fintype.sum_prod_type]
  rfl

/-! ## The running total -/

/-- The sum over block b's 512 columns (zero for a b that is no block). -/
def blockSum (f : Fin 4096 → EReal) (b : ℕ) : EReal :=
  if h : b < 8 then ∑ k : Fin 512, f (col ⟨b, h⟩ k) else 0

/-- The sum of the first n block sums. -/
def partialSum (f : Fin 4096 → EReal) (n : ℕ) : EReal :=
  ∑ b ∈ Finset.range n, blockSum f b

/-- The first block's sum by itself, after zero: what the first step leaves. -/
theorem partialSum_one (f : Fin 4096 → EReal) : partialSum f 1 = 0 + ∑ k : Fin 512, f (col ⟨0, by decide⟩ k) := by
  unfold partialSum
  rw [Finset.sum_range_one, zero_add]
  unfold blockSum
  rw [dif_pos (by decide : 0 < 8)]

/-- One more block: the total so far plus that block's sum. -/
theorem partialSum_succ (f : Fin 4096 → EReal) (n : ℕ) (h : n < 8) :
    partialSum f (n + 1) = partialSum f n + ∑ k : Fin 512, f (col ⟨n, h⟩ k) := by
  unfold partialSum
  rw [Finset.sum_range_succ]
  congr 1
  unfold blockSum
  rw [dif_pos h]

/-- All 8 blocks: the sum over the 4096 columns. -/
theorem partialSum_eight (f : Fin 4096 → EReal) : partialSum f 8 = ∑ k : Fin 4096, f k := by
  unfold partialSum
  rw [Finset.sum_range, sum_blocks]
  refine Finset.sum_congr rfl fun b _ => ?_
  unfold blockSum
  rw [dif_pos b.isLt]

end Cert.SignProduct

end
-- ==== Proof.StepValue.lean ====
/-
  What one grid step leaves behind.

  A step loads its block of x (1024 rows, 512 columns), its block of w (1024 rows, 512 columns) and the running
  total (1024 x 1024), and stores back: the total plus the product of the two blocks' sign matrices, the second
  transposed. At the first of the 8 column blocks the total is first reset to zero, so the step leaves zero plus the
  product; at the last one the new total is also copied to the output block. In every case what ends in the running
  total, and at the last column block what ends in the output block, is the one stored value `k0_pay2` of the two
  input blocks and the total the step found (zero, `k0_pay1`, after a reset): each store covers its whole buffer and
  each load reads a whole buffer, so reading back what was written returns the stored value itself.
-/
import proofs.«146931_j91250875170857_1_alg».proof.Proof.Gen.KernelIdeal.Frame
import Idealize.ShloMosaic.Lib.Pipeline.Value
import Idealize.ShloMosaic.Lib.Tactic

noncomputable section

namespace Cert.KernelIdeal.Step

open Cert.KernelIdeal Cert.KernelIdeal.Gen Idealize.ShloMosaic Idealize.ShloMosaic.TcCoe Idealize.ShloMosaic.Tactic Idealize.SL.Sem

variable {F : FTy → Type} [FloatOps F]

/-- Every load and store of the body starts at the origin of its buffer. -/
theorem origin : (![0, 0] : Fin 2 → Nat) = fun _ => 0 := funext fun a => by fin_cases a <;> rfl

/-- A middle column block: the running total `acc` becomes `k0_pay2` of the two blocks and `acc`. -/
theorem total_middle (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x512 .f32) (acc : Vec F S1024x1024 .f32) :
    sout0_B_0 c i a3 h3 a4 h4 a5 h5 a6 h6 hc0 hc1 x0 x1 acc = k0_pay2 x0 x1 acc := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero origin]
  simp only [View.readAt_eq_ld, h3.read_unread, h4.read_unread, h6.read_unread, View.ld_unit_zero (S := S1024x512) origin,
    View.ld_unit_zero (S := S1024x1024) origin]

/-- The last column block: the running total becomes the same value, -/
theorem total_last (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x512 .f32) (acc : Vec F S1024x1024 .f32) :
    sout0_C_0 c i a3 h3 a4 h4 a5 h5 a6 h6 hc0 hc1 x0 x1 acc = k0_pay2 x0 x1 acc := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero origin]
  simp only [View.readAt_eq_ld, h3.read_unread, h4.read_unread, h6.read_unread, View.ld_unit_zero (S := S1024x512) origin,
    View.ld_unit_zero (S := S1024x1024) origin]

/-- and the output block receives a copy of it, read back from the total just stored. -/
theorem output_last (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x512 .f32) (acc : Vec F S1024x1024 .f32) :
    out0_C_2 c i a3 h3 a4 h4 a5 h5 a6 h6 hc0 hc1 x0 x1 acc = k0_pay2 x0 x1 acc := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x512) origin,
    View.ld_unit_zero (S := S1024x1024) origin]

/-- The first column block: the total is reset to zero (`k0_pay1`), read back, and becomes `k0_pay2` of the two
    blocks and that zero, whatever it held before. -/
theorem total_first (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x512 .f32) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x512) origin]

end Cert.KernelIdeal.Step

end
-- ==== Proof.PayloadValue.lean ====
/-
  The value one grid step stores, read entry by entry over the extended reals.

  The step forms the sign of each element of its two input blocks (1024 rows by 512 columns each), multiplies the
  first sign matrix by the transpose of the second, and adds the product to the running total it found. So at entry
  (p, q) it stores

      total (p, q) + sum over the block's 512 columns k of sign (first p k) * sign (second q k).

  The sign is printed as a selection: where |x| > 0 it is -1 or 1 according to x < 0, and x itself where x is zero;
  on every extended real, the infinities included, that is the sign of x. The narrowing of the signs to sixteen bits
  before the product is the identity here, and the product into a zero accumulator is the plain sum of products.
-/
import proofs.«146931_j91250875170857_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The printed sign of a block, element by element: where |x| > 0 it is -1 or 1 by x < 0, elsewhere x itself (zero);
    that is the sign of x, at the infinities too. Narrowing to sixteen bits changes nothing over the extended reals. -/
theorem signs_eq (x : Vec Ideal S1024x512 .f32) :
    (truncf .bf16 (select (cmpf .ogt (absf x) (broadcast S1024x512 (Scalar.ofBits (F := Ideal) .f32 0x00000000#32)))
        (select (cmpf .olt x (constant (F := Ideal) S1024x512 .f32 0x00000000#32)) (constant (F := Ideal) S1024x512 .f32 0xBF800000#32)
          (constant (F := Ideal) S1024x512 .f32 0x3F800000#32)) x) bitsLt_bf16_f32 : FVec Ideal S1024x512 .bf16)
      = fun i => Ideal.sign (x i) :=
  funext fun i => Ideal.jnp_sign_eq_sign_f32 (x i)

/-! The matrix product contracts the second axis of both blocks: entry (p, q) pairs row p of the first with row q
    of the second. -/

theorem lhs_row (i : S1024x1024.Idx) (k : dot_S1024x512_S1024x512_S1024x1024_1_1_0_0_n_n.contr.Idx) : (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_col (i : S1024x1024.Idx) (k : dot_S1024x512_S1024x512_S1024x1024_1_1_0_0_n_n.contr.Idx) : (dot_S1024x512_S1024x512_S1024x1024_1_1_0_0_n_n.lhsIdx i k 1).val = (k ⟨0, by decide⟩).val :=
  dot_S1024x512_S1024x512_S1024x1024_1_1_0_0_n_n.lhsIdx_val_of_single rfl i k
theorem rhs_row (i : S1024x1024.Idx) (k : dot_S1024x512_S1024x512_S1024x1024_1_1_0_0_n_n.contr.Idx) : (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_col (i : S1024x1024.Idx) (k : dot_S1024x512_S1024x512_S1024x1024_1_1_0_0_n_n.contr.Idx) : (dot_S1024x512_S1024x512_S1024x1024_1_1_0_0_n_n.rhsIdx i k 1).val = (k ⟨0, by decide⟩).val :=
  dot_S1024x512_S1024x512_S1024x1024_1_1_0_0_n_n.rhsIdx_val_of_single rfl i k

/-- The stored value at entry (p, q): the total found there plus the sum over the block's 512 columns of the product
    of the signs of the first block at (p, k) and of the second at (q, k). -/
theorem step_apply (x0 x1 : Vec Ideal S1024x512 .f32) (acc : Vec Ideal S1024x1024 .f32) (p q : Fin 1024) :
    k0_pay2 (F := Ideal) x0 x1 acc (ix2 p q)
      = acc (ix2 p q) + ∑ k : Fin 512, Ideal.sign (x0 (ix2 p k)) * Ideal.sign (x1 (ix2 q k)) := by
  unfold k0_pay2
  rw [shapeCast_self, signs_eq, signs_eq, addf_apply]
  congr 1
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_row _ _
    | ⟨1, _⟩ => exact (lhs_col _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_row _ _
    | ⟨1, _⟩ => exact (rhs_col _ _).trans hk)
  rw [el, er]

/-- The reset value is zero everywhere. -/
theorem reset_apply (j : S1024x1024.Idx) : k0_pay1 (F := Ideal) j = 0 := by
  unfold k0_pay1
  rw [shapeCast_self]
  exact Ideal.ofBits_zero_f32

end Cert.KernelIdeal.Payload

end
-- ==== Proof.Accumulation.lean ====
/-
  The running total across the grid, and what reaches the output block.

  Fix an entry (r, s) of the result and write its 4096 terms sign (x r k) * sign (w s k). The 8 grid points that work
  on the 1024 x 1024 block containing (r, s) come one after another, one per block of 512 columns. The first resets
  the running total and adds its columns' terms; each later one adds its own columns' terms to what the point before
  left. So after the point of column block b the total at (r, s) is the sum of the terms of column blocks 0 .. b — by
  induction on the point — and after the last one it is the sum of all 4096 terms. That last point also copies the
  total to the output block, which therefore holds the sign product at every entry of the block.

  No condition on the entries of x and w is used: the running total is a sum of extended reals regrouped, and the
  terms themselves are products of signs.
-/
import proofs.«146931_j91250875170857_1_alg».proof.Proof.Gen.KernelIdeal.Value
import proofs.«146931_j91250875170857_1_alg».proof.Proof.SignProduct
import proofs.«146931_j91250875170857_1_alg».proof.Proof.StepValue
import proofs.«146931_j91250875170857_1_alg».proof.Proof.PayloadValue

noncomputable section

namespace Cert.KernelIdeal.Acc

open Cert.KernelIdeal Cert.KernelIdeal.Gen Cert.KernelIdeal.Step Cert.KernelIdeal.Payload Cert.SignProduct
open Idealize.ShloMosaic Idealize.ShloMosaic.TcCoe Idealize.ShloMosaic.ValueIdx Idealize.SL.Sem

variable (m : (ℓ : Loc nD τ sig) → Buf (Elt Ideal) ℓ)

/-! ## Which rows and columns a grid point works on

The 128 points run over 4 row blocks of x, 4 row blocks of w and 8 column blocks, the column block moving fastest:
point n is row block n / 32, w's row block n / 8 % 4 and column block n % 8. -/

/-- Row p of the x block of point n, as a row of x. -/
def rowOf (n : ℕ) (p : Fin 1024) : Fin 4096 := ⟨1024 * (n / 32 % 4) + p.val, by have := p.isLt; omega⟩
/-- Row q of the w block of point n, as a row of w (a column of the result). -/
def colOf (n : ℕ) (q : Fin 1024) : Fin 4096 := ⟨1024 * (n / 8 % 4) + q.val, by have := q.isLt; omega⟩
/-- The column block of point n. -/
def blockOf (n : ℕ) : Fin 8 := ⟨n % 8, Nat.mod_lt _ (by decide)⟩

/-- The printed index maps say so, at every point of the grid. -/
theorem index_facts : ∀ t : Fin cfg0.N,
    win0_0.index t (0 : Fin 2) = t.val / 32 % 4 ∧ win0_0.index t (1 : Fin 2) = t.val % 8
    ∧ win0_1.index t (0 : Fin 2) = t.val / 8 % 4 ∧ win0_1.index t (1 : Fin 2) = t.val % 8
    ∧ win0_2.index t (0 : Fin 2) = t.val / 32 % 4 ∧ win0_2.index t (1 : Fin 2) = t.val / 8 % 4 :=
  (by decide +kernel : ∀ t : Fin grid0.N, _)

/-- The x block of point t at (p, k) is x at (its row, column k of its column block). -/
theorem x_block (c : Dev nD) (t : Fin cfg0.N) (p : Fin 1024) (k : Fin 512) :
    (iblk m c 0 t : Vec Ideal S1024x512 .f32) (ix2 p k) = V m c main_arg0 (ix2 (rowOf t.val p) (col (blockOf t.val) k)) := by
  obtain ⟨e0, e1, -, -, -, -⟩ := index_facts t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = 1024 * (t.val / 32 % 4) + p.val; omega
  | ⟨1, _⟩ => show win0_0.index t (1 : Fin 2) * 512 + 1 * k.val = 512 * (t.val % 8) + k.val; omega

/-- The w block of point t at (q, k) is w at (its row, column k of its column block). -/
theorem w_block (c : Dev nD) (t : Fin cfg0.N) (q : Fin 1024) (k : Fin 512) :
    (iblk m c 1 t : Vec Ideal S1024x512 .f32) (ix2 q k) = V m c main_arg1 (ix2 (colOf t.val q) (col (blockOf t.val) k)) := by
  obtain ⟨-, -, e2, e3, -, -⟩ := index_facts t
  show V m c main_arg1 (((cfg0.win 1).blk t).view.emb (ix2 q k)) = _
  refine congrArg (V m c main_arg1) (funext fun a => Fin.ext ?_)
  match a with
  | ⟨0, _⟩ => show win0_1.index t (0 : Fin 2) * 1024 + 1 * q.val = 1024 * (t.val / 8 % 4) + q.val; omega
  | ⟨1, _⟩ => show win0_1.index t (1 : Fin 2) * 512 + 1 * k.val = 512 * (t.val % 8) + k.val; omega

/-! ## One step, from a known total -/

/-- If the total found at (p, q) is the sum of the column blocks before point t's, the value the step stores there
    is the sum of the column blocks up to and including it. -/
theorem step_total (c : Dev nD) (t : Fin cfg0.N) (acc : Vec Ideal S1024x1024 .f32) (p q : Fin 1024)
    (hacc : acc (ix2 p q) = partialSum (term (V m c main_arg0) (V m c main_arg1) (rowOf t.val p) (colOf t.val q)) (t.val % 8)) :
    k0_pay2 (F := Ideal) (iblk m c 0 t) (iblk m c 1 t) acc (ix2 p q)
      = partialSum (term (V m c main_arg0) (V m c main_arg1) (rowOf t.val p) (colOf t.val q)) (t.val % 8 + 1) := by
  refine (step_apply (iblk m c 0 t) (iblk m c 1 t) acc p q).trans ?_
  rw [partialSum_succ _ (t.val % 8) (Nat.mod_lt _ (by decide)), hacc]
  refine congrArg (_ + ·) (Finset.sum_congr rfl fun k _ => ?_)
  rw [x_block m c t p k, w_block m c t q k]
  rfl

/-! ## The running total after every point -/

/-- Within a run of 8 column blocks, the point before works on the same rows and the block before. -/
theorem same_rows (n : ℕ) (hn : ¬n % 8 = 0) (p q : Fin 1024) :
    rowOf (n - 1) p = rowOf n p ∧ colOf (n - 1) q = colOf n q ∧ (n - 1) % 8 + 1 = n % 8 := by
  refine ⟨Fin.ext ?_, Fin.ext ?_, ?_⟩
  · show 1024 * ((n - 1) / 32 % 4) + p.val = 1024 * (n / 32 % 4) + p.val
    omega
  · show 1024 * ((n - 1) / 8 % 4) + q.val = 1024 * (n / 8 % 4) + q.val
    omega
  · omega

/-- At the first column block the total is reset, so the step leaves that block's sum alone. -/
theorem total_at_first (c : Dev nD) (t : Fin cfg0.N) (h0 : t.val % 8 = 0) (p q : Fin 1024) :
    (outsAt0 m c t.val t.isLt).2 (ix2 p q)
      = partialSum (term (V m c main_arg0) (V m c main_arg1) (rowOf t.val p) (colOf t.val q)) (t.val % 8 + 1) := by
  have h1 : ¬t.val % 8 = 7 := by omega
  rw [outsAt0_A m c t h0 h1]
  dsimp only
  refine (congrFun (total_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)) (ix2 p q)).trans ?_
  refine step_total m c t (k0_pay1 (F := Ideal)) p q ?_
  rw [reset_apply, h0]
  rfl

/-- At a later column block the step adds its block's sum to what the point before left. -/
theorem total_at_later (c : Dev nD) (t : Fin cfg0.N) (h0 : ¬t.val % 8 = 0) (p q : Fin 1024)
    (ih : (outsAt0 m c (t.val - 1) (Nat.lt_of_le_of_lt (Nat.sub_le _ _) t.isLt)).2 (ix2 p q)
      = partialSum (term (V m c main_arg0) (V m c main_arg1) (rowOf (t.val - 1) p) (colOf (t.val - 1) q)) ((t.val - 1) % 8 + 1)) :
    (outsAt0 m c t.val t.isLt).2 (ix2 p q)
      = partialSum (term (V m c main_arg0) (V m c main_arg1) (rowOf t.val p) (colOf t.val q)) (t.val % 8 + 1) := by
  obtain ⟨er, ec, en⟩ := same_rows t.val h0 p q
  rw [er, ec, en] at ih
  by_cases h1 : t.val % 8 = 7
  · rw [outsAt0_C m c t h0 h1]
    dsimp only
    refine (congrFun (total_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 p q)).trans ?_
    exact step_total m c t _ p q ih
  · rw [outsAt0_B m c t h0 h1]
    dsimp only
    refine (congrFun (total_middle c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) (ix2 p q)).trans ?_
    exact step_total m c t _ p q ih

/-- So after point n the running total at (p, q) is the sum of the first n % 8 + 1 column blocks of the terms of the
    entry (row of p, row of q) that the point works on: by induction on the point. -/
theorem total_eq (c : Dev nD) : ∀ (n : ℕ) (h : n < cfg0.N) (p q : Fin 1024),
    (outsAt0 m c n h).2 (ix2 p q)
      = partialSum (term (V m c main_arg0) (V m c main_arg1) (rowOf n p) (colOf n q)) (n % 8 + 1)
  | 0, h, p, q => total_at_first m c ⟨0, h⟩ rfl p q
  | n + 1, h, p, q => by
    by_cases h0 : (n + 1) % 8 = 0
    · exact total_at_first m c ⟨n + 1, h⟩ h0 p q
    · exact total_at_later m c ⟨n + 1, h⟩ h0 p q (total_eq c n (Nat.lt_of_succ_lt h) p q)

/-! ## The output block -/

/-- At the last column block the output block receives the completed total: all 8 column blocks, that is the whole
    sum over the 4096 columns, the sign product at the entry the point works on. -/
theorem output_eq (c : Dev nD) (t : Fin cfg0.N) (h1 : t.val % 8 = 7) (p q : Fin 1024) :
    (outsAt0 m c t.val t.isLt).1 (ix2 p q)
      = signProduct (V m c main_arg0) (V m c main_arg1) (ix2 (rowOf t.val p) (colOf t.val q)) := by
  have h0 : ¬t.val % 8 = 0 := by omega
  have ih := total_eq m c (t.val - 1) (Nat.lt_of_le_of_lt (Nat.sub_le _ _) t.isLt) p q
  obtain ⟨er, ec, en⟩ := same_rows t.val h0 p q
  rw [er, ec, en] at ih
  rw [outsAt0_C m c t h0 h1]
  dsimp only
  refine (congrFun (output_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) (ix2 p q)).trans ?_
  refine (step_total m c t _ p q ih).trans ?_
  rw [h1]
  exact partialSum_eight _

end Cert.KernelIdeal.Acc

end
-- ==== Proof.KernelValue.lean ====
/-
  The kernel's result array is the sign product of its two argument arrays.

  The output is written back only after the last of each 8 column blocks, and what is written back is the 1024 x 1024
  block of the sign product that the point works on (row block n / 32, column block n / 8 % 4). These 16 blocks tile
  the 4096 x 4096 array: entry (r, s) lies in the block written back at point 32 (r / 1024) + 8 (s / 1024) + 7. So
  after the run every entry of the result array is the sign product's.
-/
import proofs.«146931_j91250875170857_1_alg».proof.Proof.Accumulation

noncomputable section

namespace Cert.KernelIdeal.Result

open Cert.KernelIdeal Cert.KernelIdeal.Gen Cert.KernelIdeal.Acc Cert.SignProduct
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What a flushing point writes back is its block of the sign product of the arrays as the region finds them. -/
theorem flushed_eq (c : Dev nD) (t : Fin cfg0.N) (hf : (cfg0.win 2).flush t = true) :
    (dats m 0 c).flushed 2 t
      = ((cfg0.win 2).blk t).view.read (Elt Ideal) (signProduct (V m c main_arg0) (V m c main_arg1)) := by
  have h1 : t.val % 8 = 7 := (flush0_2 t).mp hf
  obtain ⟨-, -, -, -, e4, e5⟩ := index_facts t
  rw [Value.flushed2]
  funext j
  obtain ⟨p, q, rfl⟩ : ∃ (p : Fin 1024) (q : Fin 1024), j = ix2 p q := ⟨j 0, j 1, eq_ix2 j⟩
  show (outsAt0 m c t.val t.isLt).1 (ix2 p q)
    = signProduct (V m c main_arg0) (V m c main_arg1) (((cfg0.win 2).blk t).view.emb (ix2 p q))
  rw [output_eq m c t h1 p q]
  refine congrArg (signProduct (V m c main_arg0) (V m c main_arg1)) (funext fun a => Fin.ext ?_)
  match a with
  | ⟨0, _⟩ => show 1024 * (t.val / 32 % 4) + p.val = win0_2.index t (0 : Fin 2) * 1024 + 1 * p.val; omega
  | ⟨1, _⟩ => show 1024 * (t.val / 8 % 4) + q.val = win0_2.index t (1 : Fin 2) * 1024 + 1 * q.val; omega

/-- An entry of the array is in point t's block when each coordinate is in the block's range on its axis. -/
theorem mem_block (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every entry is in the block of some flushing point: the one of its row block and column block. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 128 := N_0
  let t : Fin cfg0.N := ⟨32 * ((i 0).val / 1024) + 8 * ((i 1).val / 1024) + 7, by rw [hN]; omega⟩
  have ht : t.val = 32 * ((i 0).val / 1024) + 8 * ((i 1).val / 1024) + 7 := rfl
  obtain ⟨-, -, -, -, e4, e5⟩ := index_facts t
  refine ⟨t, (flush0_2 t).mpr (by omega), ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- So the result array ends at the sign product of the argument arrays. -/
theorem final (c : Dev nD) :
    (dats m 0 c).arrAt 2 cfg0.N = signProduct (m ((c : Thread nD τ).loc main_arg0)) (m ((c : Thread nD τ).loc main_arg1)) :=
  (dats m 0 c).arrAt_eq_of_cover 2 (signProduct (V m c main_arg0) (V m c main_arg1)) (flushed_eq m c) covered

/-- The kernel's run: every weakly fair execution ends with the result array at the sign product of the arguments,
    and the arguments unchanged. -/
theorem run : θ_run defs (onTc (τ := τ) (main (F := Ideal))) ⟨m, fun _ => 0, ρ⟩ fun r => ∀ c : Dev nD,
      r.2.mem ((c : Thread nD τ).loc main_v0)
        = signProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.ReferenceValue.lean ====
/-
  The reference computes the sign product.

  Its four operations are: the sign of w, the sign of x, the transpose of the first, and the matrix product of the
  second with that transpose. Read at entry (r, s) the product is the sum over the 4096 columns k of
  (sign x) r k * (transpose (sign w)) k s, and the transpose at (k, s) is sign w at (s, k): exactly the terms of the
  sign product, in the same order of the two factors.
-/
import proofs.«146931_j91250875170857_1_alg».proof.Proof.Gen.ReferenceIdeal.Read
import proofs.«146931_j91250875170857_1_alg».proof.Proof.SignProduct
import Idealize.ShloMosaic.PureOps.Ideal.Laws

noncomputable section

namespace Cert.ReferenceIdeal.RefValue

open Cert.ReferenceIdeal Cert.ReferenceIdeal.Read Idealize.ShloMosaic Idealize.ShloMosaic.ValueIdx
open Cert.SignProduct

/-- The left factor of term k of entry i is read at row i 0, column k. -/
theorem left_index (i : S4096x4096.Idx) (k : Fin 4096) : lidx_main_v3 i k = ix2 (i 0) k :=
  funext fun a => Fin.ext (by match a with | ⟨0, _⟩ => rfl | ⟨1, _⟩ => rfl)

/-- The right factor is read through the transpose: at row i 1, column k of w. -/
theorem right_index (i : S4096x4096.Idx) (k : Fin 4096) : idx_main_v2 (ridx_main_v3 i k) = ix2 (i 1) k :=
  funext fun a => Fin.ext (by match a with | ⟨0, _⟩ => rfl | ⟨1, _⟩ => rfl)

/-- The reference's result, as a function of its two arguments, is the sign product. -/
theorem reference_eq (x w : (⟨S4096x4096, .f32⟩ : BufTy).Contents (Elt Ideal)) :
    val_main_v3 (F := Ideal) x w = signProduct x w := by
  funext i
  rw [val_main_v3_apply]
  unfold signProduct term
  refine Finset.sum_congr rfl fun k _ => ?_
  rw [val_main_v1_apply, val_main_v2_apply, val_main_v0_apply, left_index, right_index]
  rfl

end Cert.ReferenceIdeal.RefValue

end
-- ==== Proof.lean ====
/-
  Sign-binarized matrix product: the kernel against its reference, over the extended reals.

  Both programs take x and w, each 4096 x 4096, and return the 4096 x 4096 array whose entry (r, s) is

      sum over the 4096 columns k of  sign (x r k) * sign (w s k).

  The reference forms sign x, sign w, transposes the latter and multiplies. The kernel works on 1024 x 1024 blocks
  of the result; for each it runs through the 4096 columns in 8 blocks of 512, forming the signs of a 1024 x 512 block
  of x and of w, multiplying the first by the transpose of the second, and adding the product to a running total that
  is reset at the first column block and copied out after the last.

  The two agree entry by entry with no condition on the inputs:
  * the kernel's sign is printed as a selection (where |v| > 0, -1 or 1 according to v < 0; v itself elsewhere), which
    is the sign of v on every extended real, and narrowing the signs to sixteen bits before the product changes nothing
    here;
  * the running total regroups the 4096 terms of an entry as 8 consecutive partial sums of 512, and addition of extended
    reals is commutative and associative, at the infinities too;
  * the blocks written back after each last column block tile the result array.

  The idealized kernel differs from the kernel as printed in two places, the two signs: there the printed program
  builds 1.0 carrying the sign bit of v by bit operations, and the idealized one selects -1 or 1 by v < 0. That is the
  sign-bit rule's statement at the blocks' shape, once per sign.
-/
import proofs.«146931_j91250875170857_1_alg».proof.Defs
import proofs.«146931_j91250875170857_1_alg».proof.Proof.Gen.Kernel
import proofs.«146931_j91250875170857_1_alg».proof.Proof.Gen.Kernel.Skeleton
import proofs.«146931_j91250875170857_1_alg».proof.Proof.Gen.Kernel.Launch
import proofs.«146931_j91250875170857_1_alg».proof.Proof.Gen.Kernel.Points
import proofs.«146931_j91250875170857_1_alg».proof.Proof.Gen.Kernel.Frame
import proofs.«146931_j91250875170857_1_alg».proof.Proof.Gen.KernelIdeal
import proofs.«146931_j91250875170857_1_alg».proof.Proof.Gen.KernelIdeal.Skeleton
import proofs.«146931_j91250875170857_1_alg».proof.Proof.Gen.KernelIdeal.Launch
import proofs.«146931_j91250875170857_1_alg».proof.Proof.Gen.KernelIdeal.Points
import proofs.«146931_j91250875170857_1_alg».proof.Proof.Gen.KernelIdeal.Frame
import proofs.«146931_j91250875170857_1_alg».proof.Proof.Gen.ReferenceIdeal
import proofs.«146931_j91250875170857_1_alg».proof.Proof.Gen.Pre_finite_inputs
import proofs.«146931_j91250875170857_1_alg».proof.Proof.Gen.KernelIdeal.Value
import proofs.«146931_j91250875170857_1_alg».proof.Proof.Gen.ReferenceIdeal.Run
import proofs.«146931_j91250875170857_1_alg».proof.Proof.Gen.ReferenceIdeal.Read
import proofs.«146931_j91250875170857_1_alg».proof.Proof.KernelValue
import proofs.«146931_j91250875170857_1_alg».proof.Proof.ReferenceValue
import Idealize.ShloMosaic.Adequacy
import Idealize.ShloMosaic.Init

noncomputable section

namespace Cert.Proof

open Idealize.ShloMosaic Idealize.SL.Sem

/-- The kernel as printed runs to the end, faults nowhere, and leaves x and w as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two rewritten sites are the two signs, each over a 1024 x 512 block of 32-bit floats. -/
theorem preserves : Cert.preserves_Kernel_KernelIdeal :=
  ⟨IdealRules.sign_bit.statement Cert.KernelIdeal.S1024x512 .f32, IdealRules.sign_bit.statement Cert.KernelIdeal.S1024x512 .f32⟩

/-- From memories that agree on x and w, the idealized kernel and the reference both end with the sign product of
    x and w in their result arrays. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
